-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel

variable [Facts]

def fn {F : FTy → Type} [FloatOps F] (main_arg0 : FVec F S8x32x512x512 .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  main_v3
-- ==== Kernel.lean ====
abbrev S8x32x512x512 : Shape := ⟨4, ![8, 32, 512, 512]⟩
abbrev S256x512x512 : Shape := ⟨3, ![256, 512, 512]⟩
abbrev S4x512x512 : Shape := ⟨3, ![4, 512, 512]⟩
abbrev S4x512x1 : Shape := ⟨3, ![4, 512, 1]⟩
abbrev S4x512x514 : Shape := ⟨3, ![4, 512, 514]⟩
abbrev S4x1x512 : Shape := ⟨3, ![4, 1, 512]⟩
abbrev S4x514x512 : Shape := ⟨3, ![4, 514, 512]⟩

abbrev nBuf : Space → Nat
  | .hbm => 6
  | .vmem => 6
  | .smem => 0
  | _ => 0

abbrev bufTy : (tb : Table) → Fin (tcTables nBuf tb) → BufTy
  | .hbm, ⟨0, _⟩ => ⟨S8x32x512x512, .f32⟩
  | .hbm, ⟨1, _⟩ => ⟨S256x512x512, .f32⟩
  | .hbm, ⟨2, _⟩ => ⟨S256x512x512, .f32⟩
  | .hbm, ⟨3, _⟩ => ⟨S256x512x512, .f32⟩
  | .hbm, ⟨4, _⟩ => ⟨S8x32x512x512, .f32⟩
  | .hbm, ⟨5, _⟩ => ⟨S8x32x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S4x512x512, .f32⟩
  | .local _ .vmem, ⟨5, _⟩ => ⟨S4x512x512, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x32x512x512_S256x512x512 : S8x32x512x512.ShapeCasts S256x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  concatenates_S4x512x1_S4x512x512_S4x512x1_S4x512x514_d2 : Shape.Concatenates [S4x512x1, S4x512x512, S4x512x1] S4x512x514 2
  slices_S4x512x514_o0_0_0_S4x512x512 : S4x512x514.Slices ![0, 0, 0] S4x512x512
  slices_S4x512x514_o0_0_1_S4x512x512 : S4x512x514.Slices ![0, 0, 1] S4x512x512
  slices_S4x512x514_o0_0_2_S4x512x512 : S4x512x514.Slices ![0, 0, 2] S4x512x512
  concatenates_S4x1x512_S4x512x512_S4x1x512_S4x514x512_d1 : Shape.Concatenates [S4x1x512, S4x512x512, S4x1x512] S4x514x512 1
  slices_S4x514x512_o0_0_0_S4x512x512 : S4x514x512.Slices ![0, 0, 0] S4x512x512
  slices_S4x514x512_o0_1_0_S4x512x512 : S4x514x512.Slices ![0, 1, 0] S4x512x512
  slices_S4x514x512_o0_2_0_S4x512x512 : S4x514x512.Slices ![0, 2, 0] S4x512x512
  shapeCasts_S256x512x512_S8x32x512x512 : S256x512x512.ShapeCasts S8x32x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S256x512x512.size a
  hwx0_0 : ∀ i : grid0.Coords, EltTy.bits .f32 = 32 ∨ (Rect.block (s := S256x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S256x512x512.size a
  hwx0_1 : ∀ i : grid0.Coords, EltTy.bits .f32 = 32 ∨ (Rect.block (s := S256x512x512) S4x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x512.size a ≤ S256x512x512.size a
  hwx0_2 : ∀ i : grid0.Coords, EltTy.bits .f32 = 32 ∨ (Rect.block (s := S256x512x512) S4x512x512.size (cc0_transform_2 i) (hinb0_2 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S4x512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x512x512 : Shape := ⟨4, ![8, 32, 512, 512]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8x32x512x512, .f32⟩
  | .hbm, ⟨1, _⟩ => ⟨S_, .f32⟩
  | .hbm, ⟨2, _⟩ => ⟨S_, .f32⟩
  | .hbm, ⟨3, _⟩ => ⟨S8x32x512x512, .f32⟩
  | .hbm, ⟨4, _⟩ => ⟨S_, .f32⟩
  | .hbm, ⟨5, _⟩ => ⟨S_, .f32⟩
  | .hbm, ⟨6, _⟩ => ⟨S8x32x512x512, .f32⟩
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x32x512x512_S8x32x512x512_w1s1p0_0_w1s1p0_0_w3s1p1_1_w3s1p1_1 : S8x32x512x512.ReduceWindows (![1, 1, 3, 3] : Fin 4 → Nat) ![1, 1, 1, 1] ![0, 0, 1, 1] ![0, 0, 1, 1] S8x32x512x512
  h_S_ : 0 < S_.numel

variable [Facts₀]

class Facts : Prop extends Facts₀ where

variable [Facts]
-- ==== Proof.LibPool3.lean ====
/-
  A separable 3-tap sliding pool on a block of shape [4, 512, 512], read at an index.

  The block is padded along an axis by concatenating a constant slab before and after it, three unit-stride
  slices of the padded array at offsets 0, 1, 2 are combined pointwise by a binary operation, and the same is
  done along the other axis.  Read at (b, h, w) the result is the operation applied to the (up to) nine
  neighbours x (b, h + dh - 1, w + dw - 1), dh, dw ∈ {0, 1, 2}, a neighbour outside the block replaced by the
  pad value.  Everything here is for ANY element type, operation and pad value.
-/
import Idealize.ShloMosaic.Lib.Pipeline.Value
import Idealize.ShloMosaic.Lib.ValueIdx

noncomputable section

namespace Idealize.ShloMosaic.Pool3

open Idealize.ShloMosaic Idealize.ShloMosaic.ValueIdx

variable {α : Type}

/-- The block, a column slab, the block padded along its last axis, a row slab, the block padded along its
    middle axis. -/
abbrev SB : Shape := ⟨3, ![4, 512, 512]⟩
abbrev SCol : Shape := ⟨3, ![4, 512, 1]⟩
abbrev SWide : Shape := ⟨3, ![4, 512, 514]⟩
abbrev SRow : Shape := ⟨3, ![4, 1, 512]⟩
abbrev STall : Shape := ⟨3, ![4, 514, 512]⟩

/-- The block with one column of v before and after it along the last axis. -/
def padW (x : SB.Idx → α) (v : α) (hc : Shape.Concatenates [SCol, SB, SCol] SWide 2) : SWide.Idx → α :=
  concatenate SWide 2 [⟨SCol, broadcast SCol v⟩, ⟨SB, x⟩, ⟨SCol, broadcast SCol v⟩] hc

/-- The block with one row of v before and after it along the middle axis. -/
def padH (x : SB.Idx → α) (v : α) (hc : Shape.Concatenates [SRow, SB, SRow] STall 1) : STall.Idx → α :=
  concatenate STall 1 [⟨SRow, broadcast SRow v⟩, ⟨SB, x⟩, ⟨SRow, broadcast SRow v⟩] hc

/-- Position s of the padded last axis holds the pad value at s = 0 and s = 513 and column s - 1 of the block
    in between. -/
theorem padW_apply (x : SB.Idx → α) (v : α) (hc : Shape.Concatenates [SCol, SB, SCol] SWide 2)
    (b : Fin 4) (h : Fin 512) (s : Fin 514) :
    padW x v hc (ix3 b h s) = if hs : 1 ≤ s.val ∧ s.val - 1 < 512 then x (ix3 b h ⟨s.val - 1, hs.2⟩) else v := by
  unfold padW
  by_cases hs : 1 ≤ s.val ∧ s.val - 1 < 512
  · rw [dif_pos hs]
    refine concatenate_apply_piece (t := SWide) 2 [⟨SCol, broadcast SCol v⟩, ⟨SB, x⟩, ⟨SCol, broadcast SCol v⟩] hc (ix3 b h s) 1 (by show 1 < 3; omega) SB x rfl rfl 1 rfl
      (ix3 b h ⟨s.val - 1, hs.2⟩) (fun a ha => ?_) ?_
    · match a, ha with
      | ⟨0, _⟩, _ => rfl
      | ⟨1, _⟩, _ => rfl
      | ⟨2, _⟩, ha => exact absurd (Fin.ext rfl) ha
    · show 1 + (s.val - 1) = s.val
      omega
  · rw [dif_neg hs]
    have hs' : s.val = 0 ∨ s.val = 513 := by have := s.isLt; omega
    rcases hs' with h0 | h513
    · refine (concatenate_apply_piece (t := SWide) 2 [⟨SCol, broadcast SCol v⟩, ⟨SB, x⟩, ⟨SCol, broadcast SCol v⟩] hc (ix3 b h s) 0 (by show 0 < 3; omega) SCol (broadcast SCol v) rfl rfl 0 rfl
        (ix3 b h (0 : Fin 1)) (fun a ha => ?_) ?_).trans rfl
      · match a, ha with
        | ⟨0, _⟩, _ => rfl
        | ⟨1, _⟩, _ => rfl
        | ⟨2, _⟩, ha => exact absurd (Fin.ext rfl) ha
      · show 0 + 0 = s.val
        omega
    · refine (concatenate_apply_piece (t := SWide) 2 [⟨SCol, broadcast SCol v⟩, ⟨SB, x⟩, ⟨SCol, broadcast SCol v⟩] hc (ix3 b h s) 2 (by show 2 < 3; omega) SCol (broadcast SCol v) rfl rfl 513 rfl
        (ix3 b h (0 : Fin 1)) (fun a ha => ?_) ?_).trans rfl
      · match a, ha with
        | ⟨0, _⟩, _ => rfl
        | ⟨1, _⟩, _ => rfl
        | ⟨2, _⟩, ha => exact absurd (Fin.ext rfl) ha
      · show 513 + 0 = s.val
        omega

/-- Position r of the padded middle axis holds the pad value at r = 0 and r = 513 and row r - 1 of the block in
    between. -/
theorem padH_apply (x : SB.Idx → α) (v : α) (hc : Shape.Concatenates [SRow, SB, SRow] STall 1)
    (b : Fin 4) (r : Fin 514) (w : Fin 512) :
    padH x v hc (ix3 b r w) = if hr : 1 ≤ r.val ∧ r.val - 1 < 512 then x (ix3 b ⟨r.val - 1, hr.2⟩ w) else v := by
  unfold padH
  by_cases hr : 1 ≤ r.val ∧ r.val - 1 < 512
  · rw [dif_pos hr]
    refine concatenate_apply_piece (t := STall) 1 [⟨SRow, broadcast SRow v⟩, ⟨SB, x⟩, ⟨SRow, broadcast SRow v⟩] hc (ix3 b r w) 1 (by show 1 < 3; omega) SB x rfl rfl 1 rfl
      (ix3 b ⟨r.val - 1, hr.2⟩ w) (fun a ha => ?_) ?_
    · match a, ha with
      | ⟨0, _⟩, _ => rfl
      | ⟨1, _⟩, ha => exact absurd (Fin.ext rfl) ha
      | ⟨2, _⟩, _ => rfl
    · show 1 + (r.val - 1) = r.val
      omega
  · rw [dif_neg hr]
    have hr' : r.val = 0 ∨ r.val = 513 := by have := r.isLt; omega
    rcases hr' with h0 | h513
    · refine (concatenate_apply_piece (t := STall) 1 [⟨SRow, broadcast SRow v⟩, ⟨SB, x⟩, ⟨SRow, broadcast SRow v⟩] hc (ix3 b r w) 0 (by show 0 < 3; omega) SRow (broadcast SRow v) rfl rfl 0 rfl
        (ix3 b (0 : Fin 1) w) (fun a ha => ?_) ?_).trans rfl
      · match a, ha with
        | ⟨0, _⟩, _ => rfl
        | ⟨1, _⟩, ha => exact absurd (Fin.ext rfl) ha
        | ⟨2, _⟩, _ => rfl
      · show 0 + 0 = r.val
        omega
    · refine (concatenate_apply_piece (t := STall) 1 [⟨SRow, broadcast SRow v⟩, ⟨SB, x⟩, ⟨SRow, broadcast SRow v⟩] hc (ix3 b r w) 2 (by show 2 < 3; omega) SRow (broadcast SRow v) rfl rfl 513 rfl
        (ix3 b (0 : Fin 1) w) (fun a ha => ?_) ?_).trans rfl
      · match a, ha with
        | ⟨0, _⟩, _ => rfl
        | ⟨1, _⟩, ha => exact absurd (Fin.ext rfl) ha
        | ⟨2, _⟩, _ => rfl
      · show 513 + 0 = r.val
        omega

/-! ## The three taps along each axis -/

/-- The slice at offset k along the last axis of the block padded along that axis, read at (b, h, w): column
    w + k - 1 of the block, or the pad value when that column is outside it. -/
theorem tapW (x : SB.Idx → α) (v : α) (hc : Shape.Concatenates [SCol, SB, SCol] SWide 2) (k : Nat) (hk : k ≤ 2)
    (hs : SWide.Slices ![0, 0, k] SB) (b : Fin 4) (h : Fin 512) (w : Fin 512) :
    extractStridedSlice SB ![0, 0, k] (padW x v hc) hs (ix3 b h w)
      = if hin : 1 ≤ w.val + k ∧ w.val + k - 1 < 512 then x (ix3 b h ⟨w.val + k - 1, hin.2⟩) else v := by
  have hlt : w.val + k < 514 := by have := w.isLt; omega
  refine (extractStridedSlice_apply ![0, 0, k] (padW x v hc) hs (ix3 b h w) (ix3 b h ⟨w.val + k, hlt⟩) (fun a => ?_)).trans ?_
  · match a with
    | ⟨0, _⟩ => show b.val = 0 + b.val; omega
    | ⟨1, _⟩ => show h.val = 0 + h.val; omega
    | ⟨2, _⟩ => show w.val + k = k + w.val; omega
  · exact padW_apply x v hc b h ⟨w.val + k, hlt⟩

/-- The slice at offset k along the middle axis of the block padded along that axis, read at (b, h, w): row
    h + k - 1 of the block, or the pad value when that row is outside it. -/
theorem tapH (x : SB.Idx → α) (v : α) (hc : Shape.Concatenates [SRow, SB, SRow] STall 1) (k : Nat) (hk : k ≤ 2)
    (hs : STall.Slices ![0, k, 0] SB) (b : Fin 4) (h : Fin 512) (w : Fin 512) :
    extractStridedSlice SB ![0, k, 0] (padH x v hc) hs (ix3 b h w)
      = if hin : 1 ≤ h.val + k ∧ h.val + k - 1 < 512 then x (ix3 b ⟨h.val + k - 1, hin.2⟩ w) else v := by
  have hlt : h.val + k < 514 := by have := h.isLt; omega
  refine (extractStridedSlice_apply ![0, k, 0] (padH x v hc) hs (ix3 b h w) (ix3 b ⟨h.val + k, hlt⟩ w) (fun a => ?_)).trans ?_
  · match a with
    | ⟨0, _⟩ => show b.val = 0 + b.val; omega
    | ⟨1, _⟩ => show h.val + k = k + h.val; omega
    | ⟨2, _⟩ => show w.val = 0 + w.val; omega
  · exact padH_apply x v hc b ⟨h.val + k, hlt⟩ w

/-! ## The pool as the program spells it, and as a function of the neighbours -/

/-- The separable pool as a vector program: pad along the last axis, combine the three taps; pad the result
    along the middle axis, combine the three taps. -/
def pool (f : α → α → α) (v : α) (x : SB.Idx → α)
    (hcW : Shape.Concatenates [SCol, SB, SCol] SWide 2)
    (hw0 : SWide.Slices ![0, 0, 0] SB) (hw1 : SWide.Slices ![0, 0, 1] SB) (hw2 : SWide.Slices ![0, 0, 2] SB)
    (hcH : Shape.Concatenates [SRow, SB, SRow] STall 1)
    (hh0 : STall.Slices ![0, 0, 0] SB) (hh1 : STall.Slices ![0, 1, 0] SB) (hh2 : STall.Slices ![0, 2, 0] SB) :
    SB.Idx → α :=
  let pw := padW x v hcW
  let along : SB.Idx → α := fun i =>
    f (f (extractStridedSlice SB ![0, 0, 0] pw hw0 i) (extractStridedSlice SB ![0, 0, 1] pw hw1 i))
      (extractStridedSlice SB ![0, 0, 2] pw hw2 i)
  let ph := padH along v hcH
  fun i =>
    f (f (extractStridedSlice SB ![0, 0, 0] ph hh0 i) (extractStridedSlice SB ![0, 1, 0] ph hh1 i))
      (extractStridedSlice SB ![0, 2, 0] ph hh2 i)

variable {B : Nat}

/-- Entry (r, w + l - 1) of plane b of a stack of 512 × 512 planes, or v when that column is outside the plane. -/
def tapRow (x : (⟨3, ![B, 512, 512]⟩ : Shape).Idx → α) (v : α) (b : Fin B) (r w : Fin 512) (l : Nat) : α :=
  if hc : 1 ≤ w.val + l ∧ w.val + l - 1 < 512 then x (ix3 b r ⟨w.val + l - 1, hc.2⟩) else v

/-- Row r combined over the three columns around w. -/
def along3 (f : α → α → α) (x : (⟨3, ![B, 512, 512]⟩ : Shape).Idx → α) (v : α) (b : Fin B) (r w : Fin 512) : α :=
  f (f (tapRow x v b r w 0) (tapRow x v b r w 1)) (tapRow x v b r w 2)

/-- Row h + k - 1 combined over the three columns around w, or v when that row is outside the plane. -/
def tapCol (f : α → α → α) (x : (⟨3, ![B, 512, 512]⟩ : Shape).Idx → α) (v : α) (b : Fin B) (h w : Fin 512) (k : Nat) : α :=
  if hr : 1 ≤ h.val + k ∧ h.val + k - 1 < 512 then along3 f x v b ⟨h.val + k - 1, hr.2⟩ w else v

/-- THE SEPARABLE FORM of the 3 × 3 pool at (b, h, w): rows first, then the three rows. -/
def sep (f : α → α → α) (v : α) (x : (⟨3, ![B, 512, 512]⟩ : Shape).Idx → α) (b : Fin B) (h w : Fin 512) : α :=
  f (f (tapCol f x v b h w 0) (tapCol f x v b h w 1)) (tapCol f x v b h w 2)

/-- The vector program read at an index is the separable form. -/
theorem pool_apply (f : α → α → α) (v : α) (x : SB.Idx → α)
    (hcW : Shape.Concatenates [SCol, SB, SCol] SWide 2)
    (hw0 : SWide.Slices ![0, 0, 0] SB) (hw1 : SWide.Slices ![0, 0, 1] SB) (hw2 : SWide.Slices ![0, 0, 2] SB)
    (hcH : Shape.Concatenates [SRow, SB, SRow] STall 1)
    (hh0 : STall.Slices ![0, 0, 0] SB) (hh1 : STall.Slices ![0, 1, 0] SB) (hh2 : STall.Slices ![0, 2, 0] SB)
    (b : Fin 4) (h w : Fin 512) :
    pool f v x hcW hw0 hw1 hw2 hcH hh0 hh1 hh2 (ix3 b h w) = sep f v x b h w := by
  have hal : ∀ (r : Fin 512),
      f (f (extractStridedSlice SB ![0, 0, 0] (padW x v hcW) hw0 (ix3 b r w))
           (extractStridedSlice SB ![0, 0, 1] (padW x v hcW) hw1 (ix3 b r w)))
        (extractStridedSlice SB ![0, 0, 2] (padW x v hcW) hw2 (ix3 b r w)) = along3 f x v b r w := by
    intro r
    rw [tapW x v hcW 0 (by omega) hw0 b r w, tapW x v hcW 1 (by omega) hw1 b r w, tapW x v hcW 2 (by omega) hw2 b r w]
    rfl
  unfold pool sep
  rw [tapH _ v hcH 0 (by omega) hh0 b h w, tapH _ v hcH 1 (by omega) hh1 b h w, tapH _ v hcH 2 (by omega) hh2 b h w]
  simp only [hal]
  rfl

/-! ## The nine neighbours, and the law joining the two arrangements -/

/-- Neighbour (dh, dw) of (h, w) in plane b: the entry at (h + dh - 1, w + dw - 1), or v outside the plane. -/
def nb (x : (⟨3, ![B, 512, 512]⟩ : Shape).Idx → α) (v : α) (b : Fin B) (h w : Fin 512) (dh dw : Nat) : α :=
  if hin : (1 ≤ h.val + dh ∧ h.val + dh - 1 < 512) ∧ (1 ≤ w.val + dw ∧ w.val + dw - 1 < 512) then
    x (ix3 b ⟨h.val + dh - 1, hin.1.2⟩ ⟨w.val + dw - 1, hin.2.2⟩) else v

/-- THE WINDOW FORM of the 3 × 3 pool at (b, h, w): the nine neighbours folded from v, row by row. -/
def win (f : α → α → α) (v : α) (x : (⟨3, ![B, 512, 512]⟩ : Shape).Idx → α) (b : Fin B) (h w : Fin 512) : α :=
  f (f (f (f (f (f (f (f (f v (nb x v b h w 0 0)) (nb x v b h w 0 1)) (nb x v b h w 0 2))
    (nb x v b h w 1 0)) (nb x v b h w 1 1)) (nb x v b h w 1 2))
    (nb x v b h w 2 0)) (nb x v b h w 2 1)) (nb x v b h w 2 2)

/-- One row of the separable form is the three neighbours of that row combined: inside the plane by definition;
    outside it all three neighbours are v, and v combined with itself is v. -/
theorem tapCol_eq (f : α → α → α) (v : α) (hl : ∀ a, f v a = a)
    (x : (⟨3, ![B, 512, 512]⟩ : Shape).Idx → α) (b : Fin B) (h w : Fin 512) (k : Nat) :
    tapCol f x v b h w k = f (f (nb x v b h w k 0) (nb x v b h w k 1)) (nb x v b h w k 2) := by
  unfold tapCol nb
  by_cases hr : 1 ≤ h.val + k ∧ h.val + k - 1 < 512
  · rw [dif_pos hr]
    unfold along3 tapRow
    have e : ∀ l : Nat, (if hin : (1 ≤ h.val + k ∧ h.val + k - 1 < 512) ∧ (1 ≤ w.val + l ∧ w.val + l - 1 < 512) then
          x (ix3 b ⟨h.val + k - 1, hin.1.2⟩ ⟨w.val + l - 1, hin.2.2⟩) else v)
        = (if hc : 1 ≤ w.val + l ∧ w.val + l - 1 < 512 then x (ix3 b ⟨h.val + k - 1, hr.2⟩ ⟨w.val + l - 1, hc.2⟩) else v) := by
      intro l
      by_cases hc : 1 ≤ w.val + l ∧ w.val + l - 1 < 512
      · rw [dif_pos hc, dif_pos ⟨hr, hc⟩]
      · rw [dif_neg hc, dif_neg (fun hh => hc hh.2)]
    rw [e 0, e 1, e 2]
  · rw [dif_neg hr, dif_neg (fun hh => hr hh.1), dif_neg (fun hh => hr hh.1), dif_neg (fun hh => hr hh.1), hl, hl]

/-- THE LAW: for an associative operation with v a left identity, the separable form is the window form. -/
theorem sep_eq_win (f : α → α → α) (v : α) (hassoc : ∀ a b c, f (f a b) c = f a (f b c)) (hl : ∀ a, f v a = a)
    (x : (⟨3, ![B, 512, 512]⟩ : Shape).Idx → α) (b : Fin B) (h w : Fin 512) :
    sep f v x b h w = win f v x b h w := by
  unfold sep win
  rw [tapCol_eq f v hl, tapCol_eq f v hl, tapCol_eq f v hl]
  simp only [hassoc, hl]

/-! ## A rank-four array [8, 32, 512, 512] as a stack of 256 planes -/

abbrev SA : Shape := ⟨4, ![8, 32, 512, 512]⟩
abbrev SS : Shape := ⟨3, ![256, 512, 512]⟩

/-- Plane 32 · n + c of the stack is plane (n, c) of the rank-four array. -/
def stack (x : SA.Idx → α) : SS.Idx → α := fun i =>
  x (ix4 (⟨(i 0).val / 32, by have : (i 0).val < 256 := (i 0).isLt; omega⟩ : Fin 8)
    (⟨(i 0).val % 32, Nat.mod_lt _ (by omega)⟩ : Fin 32) (i 1) (i 2))

theorem stack_apply (x : SA.Idx → α) (n : Fin 8) (c : Fin 32) (h w : Fin 512) (hb : 32 * n.val + c.val < 256) :
    stack x (ix3 ⟨32 * n.val + c.val, hb⟩ h w) = x (ix4 n c h w) := by
  unfold stack
  refine congrArg x (funext fun a => Fin.ext ?_)
  match a with
  | ⟨0, _⟩ => show (32 * n.val + c.val) / 32 = n.val; have := c.isLt; omega
  | ⟨1, _⟩ => show (32 * n.val + c.val) % 32 = c.val; have := c.isLt; omega
  | ⟨2, _⟩ => rfl
  | ⟨3, _⟩ => rfl

/-- The row-major reshape [8, 32, 512, 512] → [256, 512, 512] is the stack. -/
theorem shapeCast_stack (x : SA.Idx → α) (hc : SA.ShapeCasts SS) : shapeCast SS x hc = stack x := by
  funext i
  obtain ⟨b, h, w, rfl⟩ : ∃ (b : Fin 256) (h w : Fin 512), i = ix3 b h w := ⟨i 0, i 1, i 2, eq_ix3 i⟩
  refine shapeCast_apply x hc (ix3 b h w) _ ?_
  rw [Shape.rowMajor_val_four, Shape.rowMajor_val_three]
  show (((b.val / 32) * 32 + b.val % 32) * 512 + h.val) * 512 + w.val = (b.val * 512 + h.val) * 512 + w.val
  have : b.val / 32 * 32 + b.val % 32 = b.val := by omega
  rw [this]

/-- The row-major reshape back, [256, 512, 512] → [8, 32, 512, 512], read at (n, c, h, w): plane 32 · n + c. -/
theorem shapeCast_unstack (y : SS.Idx → α) (hc : SS.ShapeCasts SA) (n : Fin 8) (c : Fin 32) (h w : Fin 512)
    (hb : 32 * n.val + c.val < 256) :
    shapeCast SA y hc (ix4 n c h w) = y (ix3 ⟨32 * n.val + c.val, hb⟩ h w) := by
  refine shapeCast_apply y hc (ix4 n c h w) _ ?_
  rw [Shape.rowMajor_val_four, Shape.rowMajor_val_three]
  show ((32 * n.val + c.val) * 512 + h.val) * 512 + w.val = ((n.val * 32 + c.val) * 512 + h.val) * 512 + w.val
  omega

/-! ## A 3 × 3 reduce_window with padding one, read at an index -/

/-- The window's shape: one plane, one channel, three rows, three columns. -/
abbrev WS : Shape := ⟨4, ![1, 1, 3, 3]⟩

theorem wlist : List.finRange WS.numel = [⟨0, by decide⟩, ⟨1, by decide⟩, ⟨2, by decide⟩, ⟨3, by decide⟩,
    ⟨4, by decide⟩, ⟨5, by decide⟩, ⟨6, by decide⟩, ⟨7, by decide⟩, ⟨8, by decide⟩] := by decide

/-- Window position k, in row-major order, is row k / 3, column k % 3. -/
theorem wpos : ∀ (k : Fin WS.numel) (a : Fin 4),
    (WS.rowMajor.symm k a).val = (![0, 0, k.val / 3, k.val % 3] : Fin 4 → Nat) a := by decide

/-- Window position q at output index (n, c, h, w), shifted back by the low padding (0, 0, 1, 1), lies inside the
    operand on every axis. -/
abbrev inWin (n : Fin 8) (c : Fin 32) (h w : Fin 512) (hr : 4 = 4) (q : Fin 4 → Nat) : Prop :=
  ∀ a : Fin 4, (![0, 0, 1, 1] : Fin 4 → Nat) a
      ≤ (ix4 n c h w (a.cast hr)).val * (![1, 1, 1, 1] : Fin 4 → Nat) a + q a
    ∧ (ix4 n c h w (a.cast hr)).val * (![1, 1, 1, 1] : Fin 4 → Nat) a + q a - (![0, 0, 1, 1] : Fin 4 → Nat) a
      < (![8, 32, 512, 512] : Fin 4 → Nat) a

/-- One window position: the operand where the position, shifted back by the low padding, is inside the operand,
    the initial value where it is padding — that is neighbour (dh, dw) of the plane stack. -/
theorem window_term (x : SA.Idx → α) (v : α) (n : Fin 8) (c : Fin 32) (h w : Fin 512) (dh dw : Nat) (hr : 4 = 4)
    (q : Fin 4 → Nat) (hq : ∀ a, q a = (![0, 0, dh, dw] : Fin 4 → Nat) a) (hb : 32 * n.val + c.val < 256)
    (inst : Decidable (inWin n c h w hr q)) :
    @dite α (inWin n c h w hr q) inst
      (fun hin => x (fun a => ⟨(ix4 n c h w (a.cast hr)).val * (![1, 1, 1, 1] : Fin 4 → Nat) a + q a - (![0, 0, 1, 1] : Fin 4 → Nat) a,
        (hin a).2⟩)) (fun _ => v)
    = nb (stack x) v ⟨32 * n.val + c.val, hb⟩ h w dh dw := by
  have q0 : q 0 = 0 := hq 0
  have q1 : q 1 = 0 := hq 1
  have q2 : q 2 = dh := hq 2
  have q3 : q 3 = dw := hq 3
  unfold nb
  by_cases hin : (1 ≤ h.val + dh ∧ h.val + dh - 1 < 512) ∧ (1 ≤ w.val + dw ∧ w.val + dw - 1 < 512)
  · have hall : inWin n c h w hr q := by
      intro a
      match a with
      | ⟨0, _⟩ => show 0 ≤ n.val * 1 + q 0 ∧ n.val * 1 + q 0 - 0 < 8; have := n.isLt; omega
      | ⟨1, _⟩ => show 0 ≤ c.val * 1 + q 1 ∧ c.val * 1 + q 1 - 0 < 32; have := c.isLt; omega
      | ⟨2, _⟩ => show 1 ≤ h.val * 1 + q 2 ∧ h.val * 1 + q 2 - 1 < 512; omega
      | ⟨3, _⟩ => show 1 ≤ w.val * 1 + q 3 ∧ w.val * 1 + q 3 - 1 < 512; omega
    rw [dif_pos hall, dif_pos hin, stack_apply x n c _ _ hb]
    refine congrArg x (funext fun a => Fin.ext ?_)
    match a with
    | ⟨0, _⟩ => show n.val * 1 + q 0 - 0 = n.val; omega
    | ⟨1, _⟩ => show c.val * 1 + q 1 - 0 = c.val; omega
    | ⟨2, _⟩ => show h.val * 1 + q 2 - 1 = h.val + dh - 1; omega
    | ⟨3, _⟩ => show w.val * 1 + q 3 - 1 = w.val + dw - 1; omega
  · have hnot : ¬ inWin n c h w hr q := by
      intro hall
      have h2 : 1 ≤ h.val * 1 + q 2 ∧ h.val * 1 + q 2 - 1 < 512 := hall 2
      have h3 : 1 ≤ w.val * 1 + q 3 ∧ w.val * 1 + q 3 - 1 < 512 := hall 3
      exact hin ⟨by omega, by omega⟩
    rw [dif_neg hnot, dif_neg hin]

/-- THE REDUCE_WINDOW at (n, c, h, w): the window form of plane 32 · n + c of the stack, from the initial value. -/
theorem reduceWindow_apply (f : α → α → α) (x : SA.Idx → α) {u : Shape} (init : u.Idx → α)
    (hw : SA.ReduceWindows ![1, 1, 3, 3] ![1, 1, 1, 1] ![0, 0, 1, 1] ![0, 0, 1, 1] SA) (hu : 0 < u.numel)
    (n : Fin 8) (c : Fin 32) (h w : Fin 512) (hb : 32 * n.val + c.val < 256) :
    Host.reduceWindow f ![1, 1, 3, 3] ![1, 1, 1, 1] ![0, 0, 1, 1] ![0, 0, 1, 1] x init hw hu (ix4 n c h w)
      = win f (init (Shape.Idx.first hu)) (stack x) ⟨32 * n.val + c.val, hb⟩ h w := by
  unfold Host.reduceWindow
  dsimp only
  rw [wlist]
  simp only [List.foldl_cons, List.foldl_nil]
  unfold win
  refine congrArg₂ f (congrArg₂ f (congrArg₂ f (congrArg₂ f (congrArg₂ f (congrArg₂ f (congrArg₂ f (congrArg₂ f
    (congrArg₂ f rfl ?_) ?_) ?_) ?_) ?_) ?_) ?_) ?_) ?_
  · exact window_term x _ n c h w 0 0 hw.1.symm _ (fun a => wpos ⟨0, by decide⟩ a) hb _
  · exact window_term x _ n c h w 0 1 hw.1.symm _ (fun a => wpos ⟨1, by decide⟩ a) hb _
  · exact window_term x _ n c h w 0 2 hw.1.symm _ (fun a => wpos ⟨2, by decide⟩ a) hb _
  · exact window_term x _ n c h w 1 0 hw.1.symm _ (fun a => wpos ⟨3, by decide⟩ a) hb _
  · exact window_term x _ n c h w 1 1 hw.1.symm _ (fun a => wpos ⟨4, by decide⟩ a) hb _
  · exact window_term x _ n c h w 1 2 hw.1.symm _ (fun a => wpos ⟨5, by decide⟩ a) hb _
  · exact window_term x _ n c h w 2 0 hw.1.symm _ (fun a => wpos ⟨6, by decide⟩ a) hb _
  · exact window_term x _ n c h w 2 1 hw.1.symm _ (fun a => wpos ⟨7, by decide⟩ a) hb _
  · exact window_term x _ n c h w 2 2 hw.1.symm _ (fun a => wpos ⟨8, by decide⟩ a) hb _

/-! ## The separable form reads one plane only, and the specification over the rank-four array -/

/-- The separable form at plane b depends on the stack through that plane alone: two stacks (of any heights) whose
    planes b and b' agree give the same value there. -/
theorem sep_congr {B' : Nat} (f : α → α → α) (v : α) (x : (⟨3, ![B, 512, 512]⟩ : Shape).Idx → α)
    (x' : (⟨3, ![B', 512, 512]⟩ : Shape).Idx → α) (b : Fin B) (b' : Fin B')
    (hx : ∀ r s : Fin 512, x (ix3 b r s) = x' (ix3 b' r s)) (h w : Fin 512) :
    sep f v x b h w = sep f v x' b' h w := by
  unfold sep tapCol along3 tapRow
  simp only [hx]

/-- THE SPECIFICATION: the 3 × 3 pool of every plane of a rank-four array [8, 32, 512, 512] in window form — at
    (n, c, h, w) the nine neighbours in plane (n, c), v outside the plane, folded from v by f. -/
def pool4 (f : α → α → α) (v : α) (x : SA.Idx → α) : SA.Idx → α := fun i =>
  win f v (stack x) ⟨32 * (i 0).val + (i 1).val, by
    have h0 : (i 0).val < 8 := (i 0).isLt
    have h1 : (i 1).val < 32 := (i 1).isLt
    omega⟩ (i 2) (i 3)

theorem pool4_apply (f : α → α → α) (v : α) (x : SA.Idx → α) (n : Fin 8) (c : Fin 32) (h w : Fin 512)
    (hb : 32 * n.val + c.val < 256) :
    pool4 f v x (ix4 n c h w) = win f v (stack x) ⟨32 * n.val + c.val, hb⟩ h w := rfl

end Idealize.ShloMosaic.Pool3

end
-- ==== Proof.Payload.lean ====
/-
  The two payloads of the kernel body, read at the extended reals.

  The body loads one block x of four 512 × 512 planes and stores two blocks.  The first is the separable 3 × 3 pool
  of x with the maximum as operation and the word of −∞ as pad value (a dilation); the second the same with the
  minimum and the word of +∞ (an erosion).  At the extended reals the maximum is the lattice's max, −∞ its bottom
  and so a left identity of max; the minimum is min and +∞ its top.
-/
import proofs.«127544_j74345883894463_1_alg».proof.Proof.Gen.KernelIdeal.Skeleton
import proofs.«127544_j74345883894463_1_alg».proof.Proof.LibPool3

noncomputable section

namespace Cert.KernelIdeal.Body

open Cert.KernelIdeal Cert.KernelIdeal.Gen Idealize.ShloMosaic Idealize.ShloMosaic.ValueIdx Idealize.ShloMosaic.Pool3

/-- The dilation's operation and pad value; the erosion's. -/
abbrev fmax : Ideal .f32 → Ideal .f32 → Ideal .f32 := FloatOps.maximumf
abbrev fmin : Ideal .f32 → Ideal .f32 → Ideal .f32 := FloatOps.minimumf
abbrev negInf : Ideal .f32 := FloatOps.ofBits .f32 0xFF800000#32
abbrev posInf : Ideal .f32 := FloatOps.ofBits .f32 0x7F800000#32

/-- max is associative, and the word of −∞ denotes the bottom of the extended reals, a left identity of max. -/
theorem fmax_assoc (a b c : Ideal .f32) : fmax (fmax a b) c = fmax a (fmax b c) := max_assoc a b c
theorem fmax_negInf (a : Ideal .f32) : fmax negInf a = a := by
  show max (Ideal.ofBits .f32 0xFF800000#32) a = a
  simp [Ideal.ofBits, Ideal.ieee]

/-- min is associative, and the word of +∞ denotes the top of the extended reals, a left identity of min. -/
theorem fmin_assoc (a b c : Ideal .f32) : fmin (fmin a b) c = fmin a (fmin b c) := min_assoc a b c
theorem fmin_posInf (a : Ideal .f32) : fmin posInf a = a := by
  show min (Ideal.ofBits .f32 0x7F800000#32) a = a
  simp [Ideal.ofBits, Ideal.ieee]

/-- The loaded block passes through a shape cast to its own shape. -/
theorem pay1_eq (x0 : Vec Ideal S4x512x512 .f32) : k0_pay1 (F := Ideal) x0 = x0 := shapeCast_self x0 _

/-- The dilation's payload at (b, h, w): the separable form over max with pad value −∞. -/
theorem pay2_apply (x0 : Vec Ideal S4x512x512 .f32) (b : Fin 4) (h w : Fin 512) :
    k0_pay2 (F := Ideal) x0 (ix3 b h w) = sep fmax negInf x0 b h w := by
  refine Eq.trans ?_ (pool_apply fmax negInf x0 concatenates_S4x512x1_S4x512x512_S4x512x1_S4x512x514_d2
    slices_S4x512x514_o0_0_0_S4x512x512 slices_S4x512x514_o0_0_1_S4x512x512 slices_S4x512x514_o0_0_2_S4x512x512
    concatenates_S4x1x512_S4x512x512_S4x1x512_S4x514x512_d1
    slices_S4x514x512_o0_0_0_S4x512x512 slices_S4x514x512_o0_1_0_S4x512x512 slices_S4x514x512_o0_2_0_S4x512x512 b h w)
  show pool fmax negInf (k0_pay1 x0) _ _ _ _ _ _ _ _ (ix3 b h w) = _
  rw [pay1_eq]

/-- The erosion's payload at (b, h, w): the separable form over min with pad value +∞. -/
theorem pay3_apply (x0 : Vec Ideal S4x512x512 .f32) (b : Fin 4) (h w : Fin 512) :
    k0_pay3 (F := Ideal) x0 (ix3 b h w) = sep fmin posInf x0 b h w := by
  refine Eq.trans ?_ (pool_apply fmin posInf x0 concatenates_S4x512x1_S4x512x512_S4x512x1_S4x512x514_d2
    slices_S4x512x514_o0_0_0_S4x512x512 slices_S4x512x514_o0_0_1_S4x512x512 slices_S4x512x514_o0_0_2_S4x512x512
    concatenates_S4x1x512_S4x512x512_S4x1x512_S4x514x512_d1
    slices_S4x514x512_o0_0_0_S4x512x512 slices_S4x514x512_o0_1_0_S4x512x512 slices_S4x514x512_o0_2_0_S4x512x512 b h w)
  show pool fmin posInf (k0_pay1 x0) _ _ _ _ _ _ _ _ (ix3 b h w) = _
  rw [pay1_eq]

end Cert.KernelIdeal.Body

end
-- ==== Proof.KernelValue.lean ====
/-
  What the kernel's two result arrays hold after the run, at the extended reals.

  The program reshapes the argument [8, 32, 512, 512] into a stack of 256 planes, runs the region over 64 grid
  points, and reshapes each of the region's two output stacks back.  Point t stages planes 4 t … 4 t + 3 of the
  input stack and writes back the same four planes of each output stack, so the 64 blocks tile an output stack,
  and since the separable pool of a plane reads that plane alone, block t of an output is the restriction of ONE
  whole-stack function: the separable pool of every plane.  Read through the two reshapes, and by the law that
  joins the separable form to the window form, each result is the 3 × 3 pool of every plane (n, c) of the argument.
-/
import proofs.«127544_j74345883894463_1_alg».proof.Proof.Gen.KernelIdeal.Frame
import proofs.«127544_j74345883894463_1_alg».proof.Proof.Payload
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Cert.KernelIdeal.Body Idealize.ShloMosaic Idealize.ShloMosaic.TcCoe
open Idealize.SL.Sem Idealize.ShloMosaic.ValueIdx Idealize.ShloMosaic.Pool3
open Idealize.ShloMosaic.Pipeline (Dat)

variable (m : (ℓ : Loc nD τ sig) → Buf (Elt Ideal) ℓ) (ρ : Dev nD → PrngReg)

/-- The separable pool of every plane of a stack of 256 planes. -/
def planes {α : Type} (f : α → α → α) (v : α) (X : SS.Idx → α) : SS.Idx → α := fun i => sep f v X (i 0) (i 1) (i 2)

theorem hz : (![0, 0, 0] : Fin 3 → Nat) = fun _ => 0 := funext fun a => by fin_cases a <;> rfl

/-- The three index maps, decided over the grid: point t is at block t along the planes and at block 0 along the
    rows and the columns, for the input and for both outputs. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 64 := lt_of_lt_of_eq t.isLt N_0

/-! ## The region's input: the argument as a stack of planes -/

/-- The reshape before the region leaves the argument's plane stack in the region's input array. -/
theorem V_main_v0 (c : Dev nD) :
    (V m c main_v0 : S256x512x512.Idx → Ideal .f32) = stack (m ((c : Thread nD τ).loc main_arg0)) := by
  have e : (V m c main_v0 : S256x512x512.Idx → Ideal .f32)
      = shapeCast S256x512x512 (m ((c : Thread nD τ).loc main_arg0)) shapeCasts_S8x32x512x512_S256x512x512 := by
    show StableHlo.after hostOps0 (fun b => m (c, b)) (Proc.devRef .tc main_v0) = _
    after_results
    rfl
  rw [e]
  exact shapeCast_stack _ _

/-- Entry (b, h, w) of point t's input block is entry (4 t + b, h, w) of the input stack. -/
theorem emb0 (t : Fin cfg0.N) (b : Fin 4) (h w : Fin 512) (hb : 4 * t.val + b.val < 256) :
    (((cfg0.win 0).blk t).view.emb (ix3 b h w) : S256x512x512.Idx) = ix3 ⟨4 * t.val + b.val, hb⟩ h w := by
  obtain ⟨e0, e1, e2, -⟩ := idx_facts t
  funext a; apply Fin.ext
  match a with
  | ⟨0, _⟩ => show win0_0.index t (0 : Fin 3) * 4 + 1 * b.val = 4 * t.val + b.val; omega
  | ⟨1, _⟩ => show win0_0.index t (1 : Fin 3) * 512 + 1 * h.val = h.val; omega
  | ⟨2, _⟩ => show win0_0.index t (2 : Fin 3) * 512 + 1 * w.val = w.val; omega

theorem blk0_read (c : Dev nD) (t : Fin cfg0.N) (b : Fin 4) (h w : Fin 512) (hb : 4 * t.val + b.val < 256) :
    iblk m c 0 t (ix3 b h w) = V m c main_v0 (ix3 ⟨4 * t.val + b.val, hb⟩ h w) := by
  show V m c main_v0 (((cfg0.win 0).blk t).view.emb (ix3 b h w)) = _
  rw [emb0 t b h w hb]

/-! ## Output window 1 -/

/-- Entry (b, h, w) of point t's block of output 1 is entry (4 t + b, h, w) of that output stack. -/
theorem emb1 (t : Fin cfg0.N) (b : Fin 4) (h w : Fin 512) (hb : 4 * t.val + b.val < 256) :
    (((cfg0.win 1).blk t).view.emb (ix3 b h w) : S256x512x512.Idx) = ix3 ⟨4 * t.val + b.val, hb⟩ h w := by
  obtain ⟨-, -, -, e0, e1, e2, -⟩ := idx_facts t
  funext a; apply Fin.ext
  match a with
  | ⟨0, _⟩ => show win0_1.index t (0 : Fin 3) * 4 + 1 * b.val = 4 * t.val + b.val; omega
  | ⟨1, _⟩ => show win0_1.index t (1 : Fin 3) * 512 + 1 * h.val = h.val; omega
  | ⟨2, _⟩ => show win0_1.index t (2 : Fin 3) * 512 + 1 * w.val = w.val; omega

/-- WHAT POINT t WRITES BACK to output 1 is block t of the separable pool of every plane of the input stack. -/
theorem flushed1_eq (c : Dev nD) (t : Fin cfg0.N) :
    (dats m 0 c).flushed 1 t = ((cfg0.win 1).blk t).view.read (Elt Ideal) (planes fmax negInf (V m c main_v0)) := by
  show (cfg0.win 1).cut (grid0.coords t) ((dats m 0 c).after 1 t) = _
  rw [after0_1]
  unfold out0_1
  rw [View.canon_unit_zero hz]
  simp only [View.ld_unit_zero (S := S4x512x512) hz]
  refine funext fun (j : S4x512x512.Idx) => ?_
  obtain ⟨b, h, w, rfl⟩ : ∃ (b : Fin 4) (h w : Fin 512), j = ix3 b h w := ⟨j 0, j 1, j 2, eq_ix3 j⟩
  have hb : 4 * t.val + b.val < 256 := by have := t_lt t; have := b.isLt; omega
  show k0_pay2 (iblk m c 0 t) (ix3 b h w)
    = planes fmax negInf (V m c main_v0) (((cfg0.win 1).blk t).view.emb (ix3 b h w))
  rw [emb1 t b h w hb]
  refine (pay2_apply (iblk m c 0 t) b h w).trans ?_
  exact sep_congr fmax negInf (iblk m c 0 t) (V m c main_v0) b ⟨4 * t.val + b.val, hb⟩
    (fun r s => blk0_read m c t b r s hb) h w

/-- An index of the output stack is in point t's block iff each coordinate is in the block's range on its axis. -/
theorem mem_blk1 (t : Fin cfg0.N) (i : S256x512x512.Idx) :
    i ∈ ((cfg0.win 1).blk t).view.set ↔ ∀ a : Fin 3, win0_1.index t a * S4x512x512.size a ≤ (i a).val
      ∧ (i a).val < win0_1.index t a * S4x512x512.size a + S4x512x512.size a := by
  show i ∈ ((View.whole main_v1_0).slice (win0_1.rect t)).set ↔ _
  rw [View.set_slice_whole, Rect.mem_set_unit]
  exact Iff.rfl

/-- THE COVER: plane p of the output stack is written by point p / 4. -/
theorem cover1 (i : S256x512x512.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hi2 : (i 2).val < 512 := (i 2).isLt
  have hN : (i 0).val / 4 < cfg0.N := by rw [show cfg0.N = 64 from N_0]; omega
  refine ⟨⟨(i 0).val / 4, hN⟩, flush0_1 _, ?_⟩
  rw [mem_blk1]
  obtain ⟨-, -, -, e0, e1, e2, -⟩ := idx_facts ⟨(i 0).val / 4, hN⟩
  have e0' : win0_1.index ⟨(i 0).val / 4, hN⟩ (0 : Fin 3) = (i 0).val / 4 := e0
  intro a
  match a with
  | ⟨0, _⟩ =>
    show win0_1.index ⟨(i 0).val / 4, hN⟩ (0 : Fin 3) * 4 ≤ (i 0).val
      ∧ (i 0).val < win0_1.index ⟨(i 0).val / 4, hN⟩ (0 : Fin 3) * 4 + 4
    omega
  | ⟨1, _⟩ =>
    show win0_1.index ⟨(i 0).val / 4, hN⟩ (1 : Fin 3) * 512 ≤ (i 1).val
      ∧ (i 1).val < win0_1.index ⟨(i 0).val / 4, hN⟩ (1 : Fin 3) * 512 + 512
    omega
  | ⟨2, _⟩ =>
    show win0_1.index ⟨(i 0).val / 4, hN⟩ (2 : Fin 3) * 512 ≤ (i 2).val
      ∧ (i 2).val < win0_1.index ⟨(i 0).val / 4, hN⟩ (2 : Fin 3) * 512 + 512
    omega

/-- THE OUTPUT STACK after the run: the separable pool of every plane of the input stack. -/
theorem final1 (c : Dev nD) : (dats m 0 c).arrAt 1 cfg0.N = planes fmax negInf (V m c main_v0) :=
  (dats m 0 c).arrAt_eq_of_cover 1 _ (fun t _ => flushed1_eq m c t) cover1

/-- The reshape after the region reads that stack back as a rank-four array. -/
theorem tail_main_v2 (c : Dev nD) :
    (Pipeline.afterTail₀ cfgs (dats m) 0 (V0 m) [hostOps1] c main_v2 : S8x32x512x512.Idx → Ideal .f32)
      = shapeCast S8x32x512x512 ((dats m 0 c).arrAt 1 cfg0.N) shapeCasts_S256x512x512_S8x32x512x512 := by
  have hA : Pipeline.withArrays (cfgs 0).spec c (V0 m c) (fun w => (dats m 0 c).arrAt w (cfgs 0).N)
      (Proc.devRef .tc main_v1_0) = (dats m 0 c).arrAt 1 cfg0.N :=
    Pipeline.withArrays_arr spec0 launch0.win.arr_inj c _ _ 1
  unfold Pipeline.afterTail₀
  show StableHlo.after hostOps1 _ (Proc.devRef .tc main_v2) = _
  after_results
  rw [hA]
  rfl

/-- THE RESULT: the 3 × 3 pool, in window form, of every plane of the argument. -/
theorem out_main_v2 (c : Dev nD) :
    (Pipeline.afterTail₀ cfgs (dats m) 0 (V0 m) [hostOps1] c main_v2 : S8x32x512x512.Idx → Ideal .f32)
      = pool4 fmax negInf (m ((c : Thread nD τ).loc main_arg0)) := by
  rw [tail_main_v2, final1, V_main_v0]
  funext i
  obtain ⟨n, ch, h, w, rfl⟩ : ∃ (n : Fin 8) (ch : Fin 32) (h w : Fin 512), i = ix4 n ch h w :=
    ⟨i 0, i 1, i 2, i 3, eq_ix4 i⟩
  have hb : 32 * n.val + ch.val < 256 := by have := n.isLt; have := ch.isLt; omega
  rw [shapeCast_unstack _ _ n ch h w hb, pool4_apply fmax negInf _ n ch h w hb]
  show sep fmax negInf _ _ h w = _
  exact sep_eq_win fmax negInf fmax_assoc fmax_negInf _ _ h w

/-! ## Output window 2 -/

/-- Entry (b, h, w) of point t's block of output 2 is entry (4 t + b, h, w) of that output stack. -/
theorem emb2 (t : Fin cfg0.N) (b : Fin 4) (h w : Fin 512) (hb : 4 * t.val + b.val < 256) :
    (((cfg0.win 2).blk t).view.emb (ix3 b h w) : S256x512x512.Idx) = ix3 ⟨4 * t.val + b.val, hb⟩ h w := by
  obtain ⟨-, -, -, -, -, -, e0, e1, e2⟩ := idx_facts t
  funext a; apply Fin.ext
  match a with
  | ⟨0, _⟩ => show win0_2.index t (0 : Fin 3) * 4 + 1 * b.val = 4 * t.val + b.val; omega
  | ⟨1, _⟩ => show win0_2.index t (1 : Fin 3) * 512 + 1 * h.val = h.val; omega
  | ⟨2, _⟩ => show win0_2.index t (2 : Fin 3) * 512 + 1 * w.val = w.val; omega

/-- WHAT POINT t WRITES BACK to output 2 is block t of the separable pool of every plane of the input stack. -/
theorem flushed2_eq (c : Dev nD) (t : Fin cfg0.N) :
    (dats m 0 c).flushed 2 t = ((cfg0.win 2).blk t).view.read (Elt Ideal) (planes fmin posInf (V m c main_v0)) := by
  show (cfg0.win 2).cut (grid0.coords t) ((dats m 0 c).after 2 t) = _
  rw [after0_2]
  unfold out0_2
  rw [View.canon_unit_zero hz]
  simp only [View.ld_unit_zero (S := S4x512x512) hz]
  refine funext fun (j : S4x512x512.Idx) => ?_
  obtain ⟨b, h, w, rfl⟩ : ∃ (b : Fin 4) (h w : Fin 512), j = ix3 b h w := ⟨j 0, j 1, j 2, eq_ix3 j⟩
  have hb : 4 * t.val + b.val < 256 := by have := t_lt t; have := b.isLt; omega
  show k0_pay3 (iblk m c 0 t) (ix3 b h w)
    = planes fmin posInf (V m c main_v0) (((cfg0.win 2).blk t).view.emb (ix3 b h w))
  rw [emb2 t b h w hb]
  refine (pay3_apply (iblk m c 0 t) b h w).trans ?_
  exact sep_congr fmin posInf (iblk m c 0 t) (V m c main_v0) b ⟨4 * t.val + b.val, hb⟩
    (fun r s => blk0_read m c t b r s hb) h w

/-- An index of the output stack is in point t's block iff each coordinate is in the block's range on its axis. -/
theorem mem_blk2 (t : Fin cfg0.N) (i : S256x512x512.Idx) :
    i ∈ ((cfg0.win 2).blk t).view.set ↔ ∀ a : Fin 3, win0_2.index t a * S4x512x512.size a ≤ (i a).val
      ∧ (i a).val < win0_2.index t a * S4x512x512.size a + S4x512x512.size a := by
  show i ∈ ((View.whole main_v1_1).slice (win0_2.rect t)).set ↔ _
  rw [View.set_slice_whole, Rect.mem_set_unit]
  exact Iff.rfl

/-- THE COVER: plane p of the output stack is written by point p / 4. -/
theorem cover2 (i : S256x512x512.Idx) :
    ∃ t : Fin cfg0.N, (cfg0.win 2).flush t = true ∧ i ∈ ((cfg0.win 2).blk t).view.set := by
  have hi0 : (i 0).val < 256 := (i 0).isLt
  have hi1 : (i 1).val < 512 := (i 1).isLt
  have hi2 : (i 2).val < 512 := (i 2).isLt
  have hN : (i 0).val / 4 < cfg0.N := by rw [show cfg0.N = 64 from N_0]; omega
  refine ⟨⟨(i 0).val / 4, hN⟩, flush0_2 _, ?_⟩
  rw [mem_blk2]
  obtain ⟨-, -, -, -, -, -, e0, e1, e2⟩ := idx_facts ⟨(i 0).val / 4, hN⟩
  have e0' : win0_2.index ⟨(i 0).val / 4, hN⟩ (0 : Fin 3) = (i 0).val / 4 := e0
  intro a
  match a with
  | ⟨0, _⟩ =>
    show win0_2.index ⟨(i 0).val / 4, hN⟩ (0 : Fin 3) * 4 ≤ (i 0).val
      ∧ (i 0).val < win0_2.index ⟨(i 0).val / 4, hN⟩ (0 : Fin 3) * 4 + 4
    omega
  | ⟨1, _⟩ =>
    show win0_2.index ⟨(i 0).val / 4, hN⟩ (1 : Fin 3) * 512 ≤ (i 1).val
      ∧ (i 1).val < win0_2.index ⟨(i 0).val / 4, hN⟩ (1 : Fin 3) * 512 + 512
    omega
  | ⟨2, _⟩ =>
    show win0_2.index ⟨(i 0).val / 4, hN⟩ (2 : Fin 3) * 512 ≤ (i 2).val
      ∧ (i 2).val < win0_2.index ⟨(i 0).val / 4, hN⟩ (2 : Fin 3) * 512 + 512
    omega

/-- THE OUTPUT STACK after the run: the separable pool of every plane of the input stack. -/
theorem final2 (c : Dev nD) : (dats m 0 c).arrAt 2 cfg0.N = planes fmin posInf (V m c main_v0) :=
  (dats m 0 c).arrAt_eq_of_cover 2 _ (fun t _ => flushed2_eq m c t) cover2

/-- The reshape after the region reads that stack back as a rank-four array. -/
theorem tail_main_v3 (c : Dev nD) :
    (Pipeline.afterTail₀ cfgs (dats m) 0 (V0 m) [hostOps1] c main_v3 : S8x32x512x512.Idx → Ideal .f32)
      = shapeCast S8x32x512x512 ((dats m 0 c).arrAt 2 cfg0.N) shapeCasts_S256x512x512_S8x32x512x512 := by
  have hA : Pipeline.withArrays (cfgs 0).spec c (V0 m c) (fun w => (dats m 0 c).arrAt w (cfgs 0).N)
      (Proc.devRef .tc main_v1_1) = (dats m 0 c).arrAt 2 cfg0.N :=
    Pipeline.withArrays_arr spec0 launch0.win.arr_inj c _ _ 2
  unfold Pipeline.afterTail₀
  show StableHlo.after hostOps1 _ (Proc.devRef .tc main_v3) = _
  after_results
  rw [hA]
  rfl

/-- THE RESULT: the 3 × 3 pool, in window form, of every plane of the argument. -/
theorem out_main_v3 (c : Dev nD) :
    (Pipeline.afterTail₀ cfgs (dats m) 0 (V0 m) [hostOps1] c main_v3 : S8x32x512x512.Idx → Ideal .f32)
      = pool4 fmin posInf (m ((c : Thread nD τ).loc main_arg0)) := by
  rw [tail_main_v3, final2, V_main_v0]
  funext i
  obtain ⟨n, ch, h, w, rfl⟩ : ∃ (n : Fin 8) (ch : Fin 32) (h w : Fin 512), i = ix4 n ch h w :=
    ⟨i 0, i 1, i 2, i 3, eq_ix4 i⟩
  have hb : 32 * n.val + ch.val < 256 := by have := n.isLt; have := ch.isLt; omega
  rw [shapeCast_unstack _ _ n ch h w hb, pool4_apply fmin posInf _ n ch h w hb]
  show sep fmin posInf _ _ h w = _
  exact sep_eq_win fmin posInf fmin_assoc fmin_posInf _ _ h w

/-! ## The run, read -/

/-- Every weakly fair execution of the program terminates with the first result at the 3 × 3 max-pool of every
    plane of the argument with −∞ outside the plane, the second at the min-pool with +∞ outside, and the argument
    unchanged. -/
theorem run : θ_run defs (onTc (τ := τ) (main (F := Ideal))) ⟨m, fun _ => 0, ρ⟩ fun r => ∀ c : Dev nD,
      r.2.mem ((c : Thread nD τ).loc main_v2) = pool4 fmax negInf (m ((c : Thread nD τ).loc main_arg0))
      ∧ r.2.mem ((c : Thread nD τ).loc main_v3) = pool4 fmin posInf (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (out_main_v2 m c),
       ((h c).2 main_v3 (Pipeline.mem_restRefs_of main_v3 (by decide) (by decide))).trans (out_main_v3 m c),
       ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference's two results, at the extended reals, are the specification.

  Each result is a reduce_window over a 1 × 1 × 3 × 3 window with padding one on the last two axes: at
  (n, c, h, w) the fold, from the initial value, of the nine window positions in row-major order, a position
  outside the plane holding the initial value.  That is the window form of the 3 × 3 pool of plane (n, c) —
  the maximum from the word of −∞ for the first result, the minimum from the word of +∞ for the second.
-/
import proofs.«127544_j74345883894463_1_alg».proof.Proof.Gen.ReferenceIdeal.Read
import proofs.«127544_j74345883894463_1_alg».proof.Proof.LibPool3

noncomputable section

namespace Cert.ReferenceIdeal.RefValue

open Cert.ReferenceIdeal Cert.ReferenceIdeal.Gen Cert.ReferenceIdeal.Read
open Idealize.ShloMosaic Idealize.ShloMosaic.ValueIdx Idealize.ShloMosaic.Pool3

/-- The first result: the max-pool of every plane, −∞ outside the plane. -/
theorem dil_eq (x : S8x32x512x512.Idx → Ideal .f32) :
    val_main_v1 (F := Ideal) x
      = pool4 (FloatOps.maximumf (F := Ideal) (φ := .f32)) (FloatOps.ofBits (F := Ideal) .f32 0xFF800000#32) x := by
  funext i
  obtain ⟨n, ch, h, w, rfl⟩ : ∃ (n : Fin 8) (ch : Fin 32) (h w : Fin 512), i = ix4 n ch h w :=
    ⟨i 0, i 1, i 2, i 3, eq_ix4 i⟩
  have hb : 32 * n.val + ch.val < 256 := by have := n.isLt; have := ch.isLt; omega
  unfold val_main_v1
  rw [pool4_apply _ _ x n ch h w hb]
  exact reduceWindow_apply FloatOps.maximumf x (val_main_v0 (F := Ideal))
    reduceWindows_S8x32x512x512_S8x32x512x512_w1s1p0_0_w1s1p0_0_w3s1p1_1_w3s1p1_1 h_S_ n ch h w hb

/-- The second result: the min-pool of every plane, +∞ outside the plane. -/
theorem ero_eq (x : S8x32x512x512.Idx → Ideal .f32) :
    val_main_v3 (F := Ideal) x
      = pool4 (FloatOps.minimumf (F := Ideal) (φ := .f32)) (FloatOps.ofBits (F := Ideal) .f32 0x7F800000#32) x := by
  funext i
  obtain ⟨n, ch, h, w, rfl⟩ : ∃ (n : Fin 8) (ch : Fin 32) (h w : Fin 512), i = ix4 n ch h w :=
    ⟨i 0, i 1, i 2, i 3, eq_ix4 i⟩
  have hb : 32 * n.val + ch.val < 256 := by have := n.isLt; have := ch.isLt; omega
  unfold val_main_v3
  rw [pool4_apply _ _ x n ch h w hb]
  exact reduceWindow_apply FloatOps.minimumf x (val_main_v2 (F := Ideal))
    reduceWindows_S8x32x512x512_S8x32x512x512_w1s1p0_0_w1s1p0_0_w3s1p1_1_w3s1p1_1 h_S_ n ch h w hb

end Cert.ReferenceIdeal.RefValue

end
-- ==== Proof.lean ====
/-
  A 3 × 3 dilation and erosion of every 512 × 512 plane of an array [8, 32, 512, 512]: a kernel that pools
  separably (three taps along the columns, then three along the rows, the block padded with −∞ for the maximum and
  +∞ for the minimum) against a reference that reduces a 3 × 3 window padded by one with the same initial values.

  Both programs are read at the extended reals, where the maximum and the minimum are the lattice operations and
  the two pad words denote bottom and top.  Each result of either program is then ONE function of the argument:
  at (n, c, h, w) the nine neighbours (h + dh − 1, w + dw − 1) of plane (n, c), a neighbour outside the plane replaced
  by the pad value, combined by the operation.  The kernel combines them row by row and then across rows, the
  reference folds them in row-major order from the pad value; the two agree because the operation is associative and
  the pad value is its identity.  No finiteness of the input is used: the law holds on all extended reals.

  The three frames are the programs' runs with the results dropped; the idealization rewrote nothing.
-/
import proofs.«127544_j74345883894463_1_alg».proof.Defs
import proofs.«127544_j74345883894463_1_alg».proof.Proof.Gen.Kernel
import proofs.«127544_j74345883894463_1_alg».proof.Proof.Gen.Kernel.Skeleton
import proofs.«127544_j74345883894463_1_alg».proof.Proof.Gen.Kernel.Launch
import proofs.«127544_j74345883894463_1_alg».proof.Proof.Gen.Kernel.Points
import proofs.«127544_j74345883894463_1_alg».proof.Proof.Gen.Kernel.Frame
import proofs.«127544_j74345883894463_1_alg».proof.Proof.Gen.KernelIdeal
import proofs.«127544_j74345883894463_1_alg».proof.Proof.Gen.KernelIdeal.Skeleton
import proofs.«127544_j74345883894463_1_alg».proof.Proof.Gen.KernelIdeal.Launch
import proofs.«127544_j74345883894463_1_alg».proof.Proof.Gen.KernelIdeal.Points
import proofs.«127544_j74345883894463_1_alg».proof.Proof.Gen.KernelIdeal.Frame
import proofs.«127544_j74345883894463_1_alg».proof.Proof.Gen.ReferenceIdeal
import proofs.«127544_j74345883894463_1_alg».proof.Proof.Gen.Pre_finite_inputs
import proofs.«127544_j74345883894463_1_alg».proof.Proof.Gen.ReferenceIdeal.Run
import proofs.«127544_j74345883894463_1_alg».proof.Proof.Gen.ReferenceIdeal.Read
import proofs.«127544_j74345883894463_1_alg».proof.Proof.KernelValue
import proofs.«127544_j74345883894463_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.Pool3

/-- The word-level kernel runs and leaves its argument unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the argument both programs end with the first result at the max-pool and the second
    at the min-pool of every plane of that argument: the kernel by its run read through the blocks and the two
    reshapes, the reference by its two reduce_windows read at an index. -/
theorem algebraic : Cert.algebraic_KernelIdeal_ReferenceIdeal := by
  intro m ρ m' ρ' _ hagree
  refine ⟨fun c => pool4 Cert.KernelIdeal.Body.fmax Cert.KernelIdeal.Body.negInf
      (m ((c.tc : Thread Cert.KernelIdeal.nD Cert.KernelIdeal.τ).loc Cert.KernelIdeal.main_arg0)),
    fun c => pool4 Cert.KernelIdeal.Body.fmin Cert.KernelIdeal.Body.posInf
      (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v1_eq, Cert.ReferenceIdeal.RefValue.dil_eq, hagree c]
  · rw [(h c).2.1, Cert.ReferenceIdeal.Read.val_main_v3_eq, Cert.ReferenceIdeal.RefValue.ero_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
